-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x256 : Shape := ⟨4, ![16, 128, 128, 256]⟩
abbrev S256x256 : Shape := ⟨2, ![256, 256]⟩
abbrev S256 : Shape := ⟨1, ![256]⟩
abbrev S_ : Shape := ⟨0, ![]⟩

class Facts : Prop where
  bcast_S_S16x128x128x256 : S_.BroadcastsInDim S16x128x128x256 (![] : Fin 0 → Fin S16x128x128x256.rank)
  reducesTo_S16x128x128x256_S_d0_1_2_3 : S16x128x128x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S16x128x128x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S16x128x128x256 .f32 := Host.absf main_arg0
  let main_cst : FVec F S_ .f32 := constant S_ .f32 0x7F800000#32
  let main_v1 : FVec F S16x128x128x256 .f32 := broadcastInDim S16x128x128x256 ![] bcast_S_S16x128x128x256 main_cst
  let main_v2 : IVec S16x128x128x256 1 := cmpf .olt main_v0 main_v1
  let main_c : IVec S_ 1 := constantI S_ 1 1#1
  let main_v3 : IVec S_ 1 := (fun x v => Host.reduce IntOp.andi x v reducesTo_S16x128x128x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S16x128x128x256 : Shape := ⟨4, ![16, 128, 128, 256]⟩
abbrev S256x256 : Shape := ⟨2, ![256, 256]⟩
abbrev S256 : Shape := ⟨1, ![256]⟩
abbrev S2048x128x256 : Shape := ⟨3, ![2048, 128, 256]⟩
abbrev S8x128x256 : Shape := ⟨3, ![8, 128, 256]⟩
abbrev S1024x256 : Shape := ⟨2, ![1024, 256]⟩
abbrev S1x256 : Shape := ⟨2, ![1, 256]⟩
abbrev S8x128x128 : Shape := ⟨3, ![8, 128, 128]⟩
abbrev S8x128 : Shape := ⟨2, ![8, 128]⟩
abbrev S8x128x1 : Shape := ⟨3, ![8, 128, 1]⟩

abbrev nBuf : Space → Nat
  | .hbm => 10
  | .vmem => 10
  | .smem => 0
  | _ => 0

abbrev bufTy : (tb : Table) → Fin (tcTables nBuf tb) → BufTy
  | .hbm, ⟨0, _⟩ => ⟨S16x128x128x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S2048x128x256, .f32⟩
  | .hbm, ⟨8, _⟩ => ⟨S2048x128x256, .f32⟩
  | .hbm, ⟨9, _⟩ => ⟨S16x128x128x256, .f32⟩
  | .local _ .vmem, ⟨0, _⟩ => ⟨S8x128x256, .f32⟩
  | .local _ .vmem, ⟨1, _⟩ => ⟨S8x128x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S8x128x256, .f32⟩
  | .local _ .vmem, ⟨9, _⟩ => ⟨S8x128x256, .f32⟩
  | _, _ => ⟨S16x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x128x128x256_S2048x128x256 : S16x128x128x256.ShapeCasts S2048x128x256
  inb_S8x128x256_S8x128x256_0_0_0 : ∀ a, (![0, 0, 0] : Fin 3 → Nat) a + S8x128x256.size a ≤ S8x128x256.size a
  h_S8x128x256 : 0 < S8x128x256.numel
  shapeCasts_S8x128x256_S8x128x256 : S8x128x256.ShapeCasts S8x128x256
  shapeCasts_S8x128x256_S1024x256 : S8x128x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S1024x256_S8x128x256 : S1024x256.ShapeCasts S8x128x256
  reduces_S8x128x128_S8x128 : S8x128x128.Reduces [2] S8x128
  shapeCasts_S8x128_S8x128x1 : S8x128.ShapeCasts S8x128x1
  broadcasts_S8x128x1_S8x128x128 : S8x128x1.Broadcasts S8x128x128
  shapeCasts_S2048x128x256_S16x128x128x256 : S2048x128x256.ShapeCasts S16x128x128x256
  dot_S1024x256_S256x256_S1024x256_1_0_0_1_n_n_wf : DotDims.WF S1024x256 S256x256 S1024x256 [1] [0] [0] [1] [] []
  dot_S8x128x256_S8x128x256_S8x128x128_2_2_1_1_0_0_wf : DotDims.WF S8x128x256 S8x128x256 S8x128x128 [2] [2] [1] [1] [0] [0]
  dot_S8x128x128_S8x128x256_S8x128x256_2_1_1_2_0_0_wf : DotDims.WF S8x128x128 S8x128x256 S8x128x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x256.size a ≤ S2048x128x256.size a
  hwx0_0 : ∀ i : grid0.Coords, EltTy.bits .f32 = 32 ∨ (Rect.block (s := S2048x128x256) S8x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128x256.size a ≤ S2048x128x256.size a
  hwx0_7 : ∀ i : grid0.Coords, EltTy.bits .f32 = 32 ∨ (Rect.block (s := S2048x128x256) S8x128x256.size (cc0_transform_7 i) (hinb0_7 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S8x128x256_S8x128x256_S8x128x128_2_2_1_1_0_0 : DotDims S8x128x256 S8x128x256 S8x128x128 where
  lhsContracting := [2]
  rhsContracting := [2]
  lhsNonContracting := [1]
  rhsNonContracting := [1]
  lhsBatch := [0]
  rhsBatch := [0]
  wf := dot_S8x128x256_S8x128x256_S8x128x128_2_2_1_1_0_0_wf
def dot_S8x128x128_S8x128x256_S8x128x256_2_1_1_2_0_0 : DotDims S8x128x128 S8x128x256 S8x128x256 where
  lhsContracting := [2]
  rhsContracting := [1]
  lhsNonContracting := [1]
  rhsNonContracting := [2]
  lhsBatch := [0]
  rhsBatch := [0]
  wf := dot_S8x128x128_S8x128x256_S8x128x256_2_1_1_2_0_0_wf

abbrev win0_0 : Pipeline.Window sig grid0 :=
  Pipeline.Window.ofSpec (Memref.whole main_v0) S8x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S8x128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x128x128x256 : Shape := ⟨4, ![16, 128, 128, 256]⟩
abbrev S256x256 : Shape := ⟨2, ![256, 256]⟩
abbrev S256 : Shape := ⟨1, ![256]⟩
abbrev S1x1x1x256 : Shape := ⟨4, ![1, 1, 1, 256]⟩
abbrev S16x128x128x128 : Shape := ⟨4, ![16, 128, 128, 128]⟩
abbrev S_ : Shape := ⟨0, ![]⟩
abbrev S16x128x128 : Shape := ⟨3, ![16, 128, 128]⟩
abbrev S16x128x128x1 : Shape := ⟨4, ![16, 128, 128, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x128x128x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S16x128x128x256, .f32⟩
  | .hbm, ⟨8, _⟩ => ⟨S1x1x1x256, .f32⟩
  | .hbm, ⟨9, _⟩ => ⟨S16x128x128x256, .f32⟩
  | .hbm, ⟨10, _⟩ => ⟨S16x128x128x256, .f32⟩
  | .hbm, ⟨11, _⟩ => ⟨S16x128x128x256, .f32⟩
  | .hbm, ⟨12, _⟩ => ⟨S1x1x1x256, .f32⟩
  | .hbm, ⟨13, _⟩ => ⟨S16x128x128x256, .f32⟩
  | .hbm, ⟨14, _⟩ => ⟨S16x128x128x256, .f32⟩
  | .hbm, ⟨15, _⟩ => ⟨S16x128x128x256, .f32⟩
  | .hbm, ⟨16, _⟩ => ⟨S1x1x1x256, .f32⟩
  | .hbm, ⟨17, _⟩ => ⟨S16x128x128x256, .f32⟩
  | .hbm, ⟨18, _⟩ => ⟨S16x128x128x256, .f32⟩
  | .hbm, ⟨19, _⟩ => ⟨S16x128x128x128, .f32⟩
  | .hbm, ⟨20, _⟩ => ⟨S_, .f32⟩
  | .hbm, ⟨21, _⟩ => ⟨S16x128x128, .f32⟩
  | .hbm, ⟨22, _⟩ => ⟨S_, .f32⟩
  | .hbm, ⟨23, _⟩ => ⟨S16x128x128, .f32⟩
  | .hbm, ⟨24, _⟩ => ⟨S16x128x128, .f32⟩
  | .hbm, ⟨25, _⟩ => ⟨S16x128x128x1, .f32⟩
  | .hbm, ⟨26, _⟩ => ⟨S16x128x128x128, .f32⟩
  | .hbm, ⟨27, _⟩ => ⟨S16x128x128x128, .f32⟩
  | .hbm, ⟨28, _⟩ => ⟨S16x128x128x128, .f32⟩
  | .hbm, ⟨29, _⟩ => ⟨S_, .f32⟩
  | .hbm, ⟨30, _⟩ => ⟨S16x128x128, .f32⟩
  | .hbm, ⟨31, _⟩ => ⟨S16x128x128x1, .f32⟩
  | .hbm, ⟨32, _⟩ => ⟨S16x128x128x128, .f32⟩
  | .hbm, ⟨33, _⟩ => ⟨S16x128x128x128, .f32⟩
  | .hbm, ⟨34, _⟩ => ⟨S16x128x128x256, .f32⟩
  | .hbm, ⟨35, _⟩ => ⟨S16x128x128x256, .f32⟩
  | _, _ => ⟨S16x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S16x128x128x256_0_1_2_3 : S1x1x1x256.BroadcastsInDim S16x128x128x256 (![0, 1, 2, 3] : Fin 4 → Fin S16x128x128x256.rank)
  reducesTo_S16x128x128x128_S16x128x128_d3 : S16x128x128x128.ReducesTo [3] S16x128x128
  h_S_ : 0 < S_.numel
  bcast_S_S16x128x128 : S_.BroadcastsInDim S16x128x128 (![] : Fin 0 → Fin S16x128x128.rank)
  bcast_S16x128x128_S16x128x128x1_0_1_2 : S16x128x128.BroadcastsInDim S16x128x128x1 (![0, 1, 2] : Fin 3 → Fin S16x128x128x1.rank)
  bcast_S16x128x128x1_S16x128x128x128_0_1_2_3 : S16x128x128x1.BroadcastsInDim S16x128x128x128 (![0, 1, 2, 3] : Fin 4 → Fin S16x128x128x128.rank)
  dot_S16x128x128x256_S256x256_S16x128x128x256_3_0_012_1_n_n_wf : DotDims.WF S16x128x128x256 S256x256 S16x128x128x256 [3] [0] [0, 1, 2] [1] [] []
  dot_S16x128x128x256_S16x128x128x256_S16x128x128x128_3_3_2_2_01_01_wf : DotDims.WF S16x128x128x256 S16x128x128x256 S16x128x128x128 [3] [3] [2] [2] [0, 1] [0, 1]
  dot_S16x128x128x128_S16x128x128x256_S16x128x128x256_3_2_2_3_01_01_wf : DotDims.WF S16x128x128x128 S16x128x128x256 S16x128x128x256 [3] [2] [2] [3] [0, 1] [0, 1]

variable [Facts₀]

def dot_S16x128x128x256_S256x256_S16x128x128x256_3_0_012_1_n_n : DotDims S16x128x128x256 S256x256 S16x128x128x256 where
  lhsContracting := [3]
  rhsContracting := [0]
  lhsNonContracting := [0, 1, 2]
  rhsNonContracting := [1]
  lhsBatch := []
  rhsBatch := []
  wf := dot_S16x128x128x256_S256x256_S16x128x128x256_3_0_012_1_n_n_wf
def dot_S16x128x128x256_S16x128x128x256_S16x128x128x128_3_3_2_2_01_01 : DotDims S16x128x128x256 S16x128x128x256 S16x128x128x128 where
  lhsContracting := [3]
  rhsContracting := [3]
  lhsNonContracting := [2]
  rhsNonContracting := [2]
  lhsBatch := [0, 1]
  rhsBatch := [0, 1]
  wf := dot_S16x128x128x256_S16x128x128x256_S16x128x128x128_3_3_2_2_01_01_wf
def dot_S16x128x128x128_S16x128x128x256_S16x128x128x256_3_2_2_3_01_01 : DotDims S16x128x128x128 S16x128x128x256 S16x128x128x256 where
  lhsContracting := [3]
  rhsContracting := [2]
  lhsNonContracting := [2]
  rhsNonContracting := [3]
  lhsBatch := [0, 1]
  rhsBatch := [0, 1]
  wf := dot_S16x128x128x128_S16x128x128x256_S16x128x128x256_3_2_2_3_01_01_wf

class Facts : Prop extends Facts₀ where

variable [Facts]
-- ==== Proof.Spec.lean ====
/-
  Row-wise self-attention over the width axis, as a function of one slab.

  A slab is one image row: `X w k`, width position `w < 128`, channel `k < 256`. Three affine maps of the
  channels give, per position, a key `F`, a query `G` and a value `H`; the score of position `w` against
  position `v` is the inner product of query `w` with key `v`; the scores of a row are turned into weights
  by the exponential of their difference to the row's maximum, divided by the row's sum of those
  exponentials; the weights average the values; and the result is multiplied, entry by entry, by the slab
  itself. Everything is over the extended reals, with the exact operations.
  Both programs of this certificate compute `slab` of every image row; they differ only in how the rows are
  laid out and grouped.
-/
import Idealize.ShloMosaic.PureOps.Ideal

noncomputable section

namespace Cert.Attention

open Idealize.ShloMosaic
open scoped BigOperators

/-- An affine map of the channels at position `w`, output channel `c`: `Σ_k X w k · A k c + b c`. -/
def proj (X : Fin 128 → Fin 256 → EReal) (A : Fin 256 → Fin 256 → EReal) (b : Fin 256 → EReal)
    (w : Fin 128) (c : Fin 256) : EReal :=
  (∑ k : Fin 256, X w k * A k c) + b c

/-- The score of position `w` against position `v`: the inner product of query `w` and key `v`. -/
def score (G F : Fin 128 → Fin 256 → EReal) (w v : Fin 128) : EReal :=
  ∑ c : Fin 256, G w c * F v c

/-- The largest score of row `w` (taken against negative infinity once more, as both programs do). -/
def rowMax (S : Fin 128 → Fin 128 → EReal) (w : Fin 128) : EReal :=
  max (Ideal.ofBits .f32 0xFF800000#32) ((Finset.univ : Finset (Fin 128)).sup fun v => S w v)

/-- The exponential of a score's difference to its row's maximum. -/
def expo (S : Fin 128 → Fin 128 → EReal) (w v : Fin 128) : EReal :=
  Ideal.exp (S w v - rowMax S w)

/-- The sum of a row's exponentials. -/
def denom (S : Fin 128 → Fin 128 → EReal) (w : Fin 128) : EReal :=
  ∑ v : Fin 128, expo S w v

/-- The weight position `w` gives position `v`. -/
def weight (S : Fin 128 → Fin 128 → EReal) (w v : Fin 128) : EReal :=
  Ideal.div (expo S w v) (denom S w)

/-- The weighted average of the values at position `w`, channel `c`. -/
def attend (B : Fin 128 → Fin 128 → EReal) (H : Fin 128 → Fin 256 → EReal) (w : Fin 128) (c : Fin 256) : EReal :=
  ∑ v : Fin 128, B w v * H v c

/-- The layer on one slab: the attention output times the slab, entry by entry. -/
def slab (X : Fin 128 → Fin 256 → EReal) (Af : Fin 256 → Fin 256 → EReal) (bf : Fin 256 → EReal)
    (Ag : Fin 256 → Fin 256 → EReal) (bg : Fin 256 → EReal) (Ah : Fin 256 → Fin 256 → EReal) (bh : Fin 256 → EReal)
    (w : Fin 128) (c : Fin 256) : EReal :=
  attend (weight (score (proj X Ag bg) (proj X Af bf))) (proj X Ah bh) w c * X w c

end Cert.Attention

end
-- ==== Proof.Layer.lean ====
/-
  The layer on the whole input: every image row `(b, h)` of a `[16, 128, 128, 256]` array is a slab, and the result at
  `(b, h, w, c)` is `slab` of that row at `(w, c)`. This is the one function both programs are shown to compute.
-/
import proofs.«169821_j5772436046133_1_alg».proof.Proof.Spec
import Idealize.ShloMosaic.Lib.ValueIdx

noncomputable section

namespace Cert.Attention

open Idealize.ShloMosaic Idealize.ShloMosaic.ValueIdx

/-- The layer on every image row of the input, with the weights and biases as arrays. -/
def layer (X : (⟨4, ![16, 128, 128, 256]⟩ : Shape).Idx → EReal)
    (A1 : (⟨2, ![256, 256]⟩ : Shape).Idx → EReal) (a2 : (⟨1, ![256]⟩ : Shape).Idx → EReal)
    (A3 : (⟨2, ![256, 256]⟩ : Shape).Idx → EReal) (a4 : (⟨1, ![256]⟩ : Shape).Idx → EReal)
    (A5 : (⟨2, ![256, 256]⟩ : Shape).Idx → EReal) (a6 : (⟨1, ![256]⟩ : Shape).Idx → EReal) :
    (⟨4, ![16, 128, 128, 256]⟩ : Shape).Idx → EReal := fun i =>
  slab (fun w k => X (ix4 (i 0 : Fin 16) (i 1 : Fin 128) w k)) (fun k c => A1 (ix2 k c)) (fun c => a2 (ix1 c))
    (fun k c => A3 (ix2 k c)) (fun c => a4 (ix1 c)) (fun k c => A5 (ix2 k c)) (fun c => a6 (ix1 c))
    (i 2 : Fin 128) (i 3 : Fin 256)

end Cert.Attention

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibFlattenRows.lean ====
/-
  Flattening the two leading axes of a rank-3 array, and un-flattening them.

  Row-major order does not change when the axes `a` and `b` of an `[a, b, c]` array are merged into one axis of
  extent `n = a·b`: entry `(x, y, z)` of the rank-3 array and entry `(x·b + y, z)` of the matrix sit at the same
  position `(x·b + y)·c + z`. So a reshape in either direction reads the operand at the matching index, for any
  element type and any extents.
-/
import Idealize.ShloMosaic.Lib.Pipeline.Value
import Idealize.ShloMosaic.Lib.ValueIdx

namespace Cert.Lib

open Idealize.ShloMosaic Idealize.ShloMosaic.ValueIdx

variable {α : Type}

/-- An `[a, b, c]` array reshaped to `[n, c]` reads, at row `r = x·b + y` and column `z`, the operand at `(x, y, z)`. -/
theorem shapeCast_abc_nc_apply {a b c n : ℕ} (X : (⟨3, ![a, b, c]⟩ : Shape).Idx → α)
    (h : (⟨3, ![a, b, c]⟩ : Shape).ShapeCasts ⟨2, ![n, c]⟩) (x : Fin a) (y : Fin b) (z : Fin c) (r : Fin n)
    (hr : r.val = x.val * b + y.val) : shapeCast ⟨2, ![n, c]⟩ X h (ix2 r z) = X (ix3 x y z) :=
  shapeCast_apply X h _ _ (by
    rw [Shape.rowMajor_val_three, Shape.rowMajor_val_two]
    show (x.val * b + y.val) * c + z.val = r.val * c + z.val
    rw [hr])

/-- An `[n, c]` matrix reshaped to `[a, b, c]` reads, at `(x, y, z)`, the operand at row `r = x·b + y`, column `z`. -/
theorem shapeCast_nc_abc_apply {a b c n : ℕ} (Y : (⟨2, ![n, c]⟩ : Shape).Idx → α)
    (h : (⟨2, ![n, c]⟩ : Shape).ShapeCasts ⟨3, ![a, b, c]⟩) (x : Fin a) (y : Fin b) (z : Fin c) (r : Fin n)
    (hr : r.val = x.val * b + y.val) : shapeCast ⟨3, ![a, b, c]⟩ Y h (ix3 x y z) = Y (ix2 r z) :=
  shapeCast_apply Y h _ _ (by
    rw [Shape.rowMajor_val_two, Shape.rowMajor_val_three]
    show r.val * c + z.val = (x.val * b + y.val) * c + z.val
    rw [hr])

end Cert.Lib
-- ==== Proof.LibKeepRows.lean ====
/-
  A reduction over the last axis of a rank-3 array that keeps the axis, read at an index.

  For an array of shape [a, b, c]:
  * a [a, b] array cast to [a, b, 1] reads, at (i, j, u), the operand at (i, j)             (shapeCast_ab_ab1_apply);
  * a [a, b, 1] array broadcast to [a, b, c] reads, at (i, j, k), the operand at (i, j, 0)   (broadcastTo_ab1_abc_apply);
  * a [1, b, c] array broadcast to [a, b, c] reads, at (i, j, k), the operand at (0, j, k)   (broadcastTo_1bc_abc_apply);
  * over the exact reals-with-infinities, the sum over the last axis into [a, b] reads, at (i, j), the sum over k
    of the source at (i, j, k)                                                                (sumLast_apply).
  Together: a per-row statistic of an [a, b, c] array, kept as a column and spread back over the row, read at
  (i, j, k), is the statistic of row (i, j). For any extents and (the first three) any element type.
-/
import Idealize.ShloMosaic.Lib.Pipeline.Value
import Idealize.ShloMosaic.Lib.ValueIdx
import Idealize.ShloMosaic.PureOps.Ideal.Laws

noncomputable section

namespace Cert.Lib.KeepRows

open Idealize.ShloMosaic Idealize.ShloMosaic.ValueIdx
open scoped BigOperators

variable {α : Type}

/-- An [a, b] array cast to [a, b, 1] reads, at (i, j, u), the operand at (i, j): the two row-major positions agree. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand's one entry of row (i, j). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A [1, b, c] array broadcast to [a, b, c] reads, at (i, j, k), the operand's one slab at (j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- Over the extended reals, the sum of an [a, b, c] array over its last axis reads, at (i, j), the sum over k of the
    entries (i, j, k): the index with the summed coordinate put back is (i, j, k). -/
theorem sumLast_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

end Cert.Lib.KeepRows

end
-- ==== Proof.LibBatchDot.lean ====
/-
  Batched matrix products of rank-3 arrays read at an index, at the ideal values.

  With one batch axis in front (axis 0 of both operands and of the result):
  * "row times row": the left operand `[t, w, c]` and the right `[t, v, c]` contracted over their last axes give
    `[t, w, v]`, at `(a, p, q)` the sum over `k` of `A (a, p, k) * B (a, q, k)`                 (`matmul_rows_apply`);
  * "row times column": the left operand `[t, w, v]` contracted over its last axis with axis 1 of the right
    `[t, v, c]` gives `[t, w, c]`, at `(a, p, q)` the sum over `k` of `A (a, p, k) * B (a, k, q)`   (`matmul_cols_apply`).
  Both for the matrix unit's product into a zero accumulator, for any extents and operand formats.
-/
import Idealize.ShloMosaic.Lib.ValueIdx
import Idealize.ShloMosaic.PureOps.Ideal.Laws

noncomputable section

namespace Cert.LibBatchDot

open Idealize.ShloMosaic Idealize.ShloMosaic.ValueIdx
open scoped BigOperators

variable {t w v c : Nat} {φ₁ φ₂ : FTy}

/-! ## Contracting the last axes of both operands -/

/-- The record: batch axis 0, kept axis 1 of each operand, contracted axis 2 of each. -/
abbrev rowsDims (wf : DotDims.WF ⟨3, ![t, w, c]⟩ ⟨3, ![t, v, c]⟩ ⟨3, ![t, w, v]⟩ [2] [2] [1] [1] [0] [0]) :
    DotDims ⟨3, ![t, w, c]⟩ ⟨3, ![t, v, c]⟩ ⟨3, ![t, w, v]⟩ := ⟨[2], [2], [1], [1], [0], [0], wf⟩

theorem rows_lhsIdx (wf : DotDims.WF ⟨3, ![t, w, c]⟩ ⟨3, ![t, v, c]⟩ ⟨3, ![t, w, v]⟩ [2] [2] [1] [1] [0] [0])
    (a : Fin t) (p : Fin w) (q : Fin v) (k : Fin c) :
    (rowsDims wf).lhsIdx (ix3 a p q) ((contrEquiv1 (rowsDims wf) c rfl rfl).symm k) = ix3 a p k := by
  have hk := contrEquiv1_symm_val (rowsDims wf) c rfl rfl k
  funext ax; apply Fin.ext
  match ax with
  | ⟨0, _⟩ => simp [DotDims.lhsIdx]; rfl
  | ⟨1, _⟩ => simp [DotDims.lhsIdx]; rfl
  | ⟨2, _⟩ => simp [DotDims.lhsIdx]; exact hk

theorem rows_rhsIdx (wf : DotDims.WF ⟨3, ![t, w, c]⟩ ⟨3, ![t, v, c]⟩ ⟨3, ![t, w, v]⟩ [2] [2] [1] [1] [0] [0])
    (a : Fin t) (p : Fin w) (q : Fin v) (k : Fin c) :
    (rowsDims wf).rhsIdx (ix3 a p q) ((contrEquiv1 (rowsDims wf) c rfl rfl).symm k) = ix3 a q k := by
  have hk := contrEquiv1_symm_val (rowsDims wf) c rfl rfl k
  funext ax; apply Fin.ext
  match ax with
  | ⟨0, _⟩ => simp [DotDims.rhsIdx]; rfl
  | ⟨1, _⟩ => simp [DotDims.rhsIdx]; rfl
  | ⟨2, _⟩ => simp [DotDims.rhsIdx]; exact hk

/-- The matrix unit's batched product of rows with rows into a zero accumulator, at `(a, p, q)`. -/
theorem matmul_rows_apply (wf : DotDims.WF ⟨3, ![t, w, c]⟩ ⟨3, ![t, v, c]⟩ ⟨3, ![t, w, v]⟩ [2] [2] [1] [1] [0] [0])
    (prec : Option ContractPrecision) (A : FVec Ideal ⟨3, ![t, w, c]⟩ φ₁) (B : FVec Ideal ⟨3, ![t, v, c]⟩ φ₂)
    (a : Fin t) (p : Fin w) (q : Fin v) :
    matmul (rowsDims wf) prec A B (constant ⟨3, ![t, w, v]⟩ .f32 0x00000000#32) (ix3 a p q)
      = ∑ k : Fin c, A (ix3 a p k) * B (ix3 a q k) := by
  show FloatOps.matmul _ prec A B _ (ix3 a p q) = _
  rw [Ideal.matmul_constant_zero_apply, ← Equiv.sum_comp (contrEquiv1 (rowsDims wf) c rfl rfl).symm]
  refine Finset.sum_congr rfl fun k _ => ?_
  rw [rows_lhsIdx, rows_rhsIdx]

/-! ## Contracting the left operand's last axis with the right operand's middle axis -/

/-- The record: batch axis 0, the left operand's axis 2 contracted with the right operand's axis 1. -/
abbrev colsDims (wf : DotDims.WF ⟨3, ![t, w, v]⟩ ⟨3, ![t, v, c]⟩ ⟨3, ![t, w, c]⟩ [2] [1] [1] [2] [0] [0]) :
    DotDims ⟨3, ![t, w, v]⟩ ⟨3, ![t, v, c]⟩ ⟨3, ![t, w, c]⟩ := ⟨[2], [1], [1], [2], [0], [0], wf⟩

theorem cols_lhsIdx (wf : DotDims.WF ⟨3, ![t, w, v]⟩ ⟨3, ![t, v, c]⟩ ⟨3, ![t, w, c]⟩ [2] [1] [1] [2] [0] [0])
    (a : Fin t) (p : Fin w) (q : Fin c) (k : Fin v) :
    (colsDims wf).lhsIdx (ix3 a p q) ((contrEquiv1 (colsDims wf) v rfl rfl).symm k) = ix3 a p k := by
  have hk := contrEquiv1_symm_val (colsDims wf) v rfl rfl k
  funext ax; apply Fin.ext
  match ax with
  | ⟨0, _⟩ => simp [DotDims.lhsIdx]; rfl
  | ⟨1, _⟩ => simp [DotDims.lhsIdx]; rfl
  | ⟨2, _⟩ => simp [DotDims.lhsIdx]; exact hk

theorem cols_rhsIdx (wf : DotDims.WF ⟨3, ![t, w, v]⟩ ⟨3, ![t, v, c]⟩ ⟨3, ![t, w, c]⟩ [2] [1] [1] [2] [0] [0])
    (a : Fin t) (p : Fin w) (q : Fin c) (k : Fin v) :
    (colsDims wf).rhsIdx (ix3 a p q) ((contrEquiv1 (colsDims wf) v rfl rfl).symm k) = ix3 a k q := by
  have hk := contrEquiv1_symm_val (colsDims wf) v rfl rfl k
  funext ax; apply Fin.ext
  match ax with
  | ⟨0, _⟩ => simp [DotDims.rhsIdx]; rfl
  | ⟨1, _⟩ => simp [DotDims.rhsIdx]; exact hk
  | ⟨2, _⟩ => simp [DotDims.rhsIdx]; rfl

/-- The matrix unit's batched product of rows with columns into a zero accumulator, at `(a, p, q)`. -/
theorem matmul_cols_apply (wf : DotDims.WF ⟨3, ![t, w, v]⟩ ⟨3, ![t, v, c]⟩ ⟨3, ![t, w, c]⟩ [2] [1] [1] [2] [0] [0])
    (prec : Option ContractPrecision) (A : FVec Ideal ⟨3, ![t, w, v]⟩ φ₁) (B : FVec Ideal ⟨3, ![t, v, c]⟩ φ₂)
    (a : Fin t) (p : Fin w) (q : Fin c) :
    matmul (colsDims wf) prec A B (constant ⟨3, ![t, w, c]⟩ .f32 0x00000000#32) (ix3 a p q)
      = ∑ k : Fin v, A (ix3 a p k) * B (ix3 a k q) := by
  show FloatOps.matmul _ prec A B _ (ix3 a p q) = _
  rw [Ideal.matmul_constant_zero_apply, ← Equiv.sum_comp (contrEquiv1 (colsDims wf) v rfl rfl).symm]
  refine Finset.sum_congr rfl fun k _ => ?_
  rw [cols_lhsIdx, cols_rhsIdx]

end Cert.LibBatchDot

end
-- ==== Proof.LibLastMax.lean ====
/-
  A maximum over the last axis, on the extended reals.

  A reduction by maximum that starts from negative infinity is the supremum of the entries folded into a
  result entry: max is commutative and associative, so the order of the fold is immaterial, and the start is
  the least element. Two readings at a result index, for any extents:
  * a vector reduction over the last axis of an `A × B × C` array, at `(a, b)`: the supremum over `k < C` of the
    entries `(a, b, k)`                                                                    (`maxLast3_apply`);
  * a host reduction over the last axis of an `A × B × C × D` array from an initial value that is negative
    infinity, at `(a, b, c)`: the supremum over `k < D` of the entries `(a, b, c, k)`          (`hostMaxLast4_apply`).
-/
import Idealize.ShloMosaic.PureOps.Ideal.Laws
import Idealize.ShloMosaic.Lib.ValueIdx

noncomputable section

namespace Cert.LibLastMax

open Idealize.ShloMosaic Idealize.ShloMosaic.ValueIdx

/-- The f32 word of negative infinity denotes the least extended real. -/
theorem ofBits_neg_inf : Ideal.ofBits .f32 0xFF800000#32 = (⊥ : EReal) := by simp [Ideal.ofBits, Ideal.ieee]

/-- A vector maximum over the last axis of an `A × B × C` array from negative infinity, at `(a, b)`. -/
theorem maxLast3_apply {A B C : Nat} (y : FVec Ideal ⟨3, ![A, B, C]⟩ .f32)
    (h : (⟨3, ![A, B, C]⟩ : Shape).Reduces [2] ⟨2, ![A, B]⟩) (hφ : FKind.Formats .f32)
    (hacc : (0xFF800000#32 : BitVec 32) = FKind.maximumf.neutral .f32 hφ) (a : Fin A) (b : Fin B) :
    multiReduction .maximumf [2] ⟨2, ![A, B]⟩ y 0xFF800000#32 h hφ hacc (ix2 a b)
      = (Finset.univ : Finset (Fin C)).sup fun k => y (ix3 a b k) := by
  have hl : ∀ k : Fin C, h.lift (ix2 a b) k = ix3 a b k := fun k => by
    funext c; apply Fin.ext
    match c with
    | ⟨0, _⟩ => rfl
    | ⟨1, _⟩ => rfl
    | ⟨2, _⟩ => rfl
  refine (Ideal.multiReduction_maximumf_single y _ h hφ hacc (ix2 a b)).trans ?_
  rw [show FloatOps.ofBits (F := Ideal) .f32 0xFF800000#32 = (⊥ : EReal) from ofBits_neg_inf]
  exact Finset.sup_congr rfl fun k _ => congrArg y (hl k)

/-- Of four axes, the ones other than the last are 0, 1 and 2, whatever the extents. -/
theorem kept_axis3 {A B C D : Nat} : (⟨4, ![A, B, C, D]⟩ : Shape).kept [3] = [0, 1, 2] := by
  show (List.finRange 4).filter (· ∉ ([3] : List (Fin 4))) = [0, 1, 2]
  decide

theorem kept_axis3_0 {A B C D : Nat} (hh : 0 < ((⟨4, ![A, B, C, D]⟩ : Shape).kept [3]).length) :
    ((⟨4, ![A, B, C, D]⟩ : Shape).kept [3])[0] = 0 := by
  revert hh; rw [kept_axis3]; intro _; rfl

theorem kept_axis3_1 {A B C D : Nat} (hh : 1 < ((⟨4, ![A, B, C, D]⟩ : Shape).kept [3]).length) :
    ((⟨4, ![A, B, C, D]⟩ : Shape).kept [3])[1] = 1 := by
  revert hh; rw [kept_axis3]; intro _; rfl

theorem kept_axis3_2 {A B C D : Nat} (hh : 2 < ((⟨4, ![A, B, C, D]⟩ : Shape).kept [3]).length) :
    ((⟨4, ![A, B, C, D]⟩ : Shape).kept [3])[2] = 2 := by
  revert hh; rw [kept_axis3]; intro _; rfl

/-- A host maximum over the last axis of an `A × B × C × D` array, from an initial value that is negative infinity,
    at `(a, b, c)`: the supremum over `k < D` of the entries `(a, b, c, k)`. -/
theorem hostMaxLast4_apply {A B C D : Nat} (y : (⟨4, ![A, B, C, D]⟩ : Shape).Idx → EReal) {u : Shape}
    (init : u.Idx → EReal) (h' : (⟨4, ![A, B, C, D]⟩ : Shape).ReducesTo [3] ⟨3, ![A, B, C]⟩) (hu : 0 < u.numel)
    (hinit : init (Shape.Idx.first hu) = ⊥) (a : Fin A) (b : Fin B) (c : Fin C) :
    Host.reduce (FloatOps.maximumf (F := Ideal) (φ := .f32)) y init h' hu (ix3 a b c)
      = (Finset.univ : Finset (Fin D)).sup fun k => y (ix4 a b c k) := by
  rw [Host.reduce_eq_fold, hinit]
  have hd : ∀ i : (⟨4, ![A, B, C, D]⟩ : Shape).Idx, h'.drop i = ix3 (i 0 : Fin A) (i 1 : Fin B) (i 2 : Fin C) := fun i => by
    funext b'
    match b' with
    | ⟨0, _⟩ => exact Fin.ext (h'.drop_apply_val_of_eq i 0 0 (by rw [kept_axis3]; exact (by omega : (0 : ℕ) < 3)) (kept_axis3_0 _))
    | ⟨1, _⟩ => exact Fin.ext (h'.drop_apply_val_of_eq i 1 1 (by rw [kept_axis3]; exact (by omega : (1 : ℕ) < 3)) (kept_axis3_1 _))
    | ⟨2, _⟩ => exact Fin.ext (h'.drop_apply_val_of_eq i 2 2 (by rw [kept_axis3]; exact (by omega : (2 : ℕ) < 3)) (kept_axis3_2 _))
  show (Finset.univ.filter fun i => h'.drop i = ix3 a b c).sup y = _
  apply le_antisymm
  · apply Finset.sup_le
    intro i hi
    have hi2 := (Finset.mem_filter.1 hi).2
    rw [hd] at hi2
    have e0 : (i 0 : Fin A) = a := congrFun hi2 0
    have e1 : (i 1 : Fin B) = b := congrFun hi2 1
    have e2 : (i 2 : Fin C) = c := congrFun hi2 2
    have ei : i = ix4 a b c (i 3 : Fin D) := by rw [← e0, ← e1, ← e2]; exact eq_ix4 i
    rw [ei]
    exact Finset.le_sup (f := fun k : Fin D => y (ix4 a b c k)) (Finset.mem_univ (i 3 : Fin D))
  · apply Finset.sup_le
    intro k _
    exact Finset.le_sup (f := y) (Finset.mem_filter.2 ⟨Finset.mem_univ _, (hd _).trans rfl⟩)

end Cert.LibLastMax

end
-- ==== Proof.KernelBlock.lean ====
/-
  What the kernel's body writes for one block, entry by entry.

  A block is eight consecutive image rows, `x0 (t, w, k)` with `t < 8`. The body flattens the eight rows to a
  1024 × 256 matrix (row `t·128 + w`), multiplies it by the three weight matrices and adds the biases, folds the
  results back to 8 × 128 × 256, and then works row by row: scores, their maximum, exponentials, their sum, the
  quotient, the weighted average of the values, and the product with the block. Flattening and folding back
  do not mix rows, so entry `(t, w, c)` of the result is `slab` of row `t` of the block at `(w, c)`.
-/
import proofs.«169821_j5772436046133_1_alg».proof.Proof.Gen.KernelIdeal.Skeleton
import proofs.«169821_j5772436046133_1_alg».proof.Proof.Spec
import proofs.«169821_j5772436046133_1_alg».proof.Proof.LibDot
import proofs.«169821_j5772436046133_1_alg».proof.Proof.LibFlattenRows
import proofs.«169821_j5772436046133_1_alg».proof.Proof.LibKeepRows
import proofs.«169821_j5772436046133_1_alg».proof.Proof.LibBatchDot
import proofs.«169821_j5772436046133_1_alg».proof.Proof.LibLastMax
import Idealize.ShloMosaic.Lib.ValueLayout
import Idealize.ShloMosaic.Lib.Pipeline.Value
import Idealize.ShloMosaic.Lib.ValueIdx

noncomputable section

namespace Cert.KernelIdeal.Block

open Idealize.ShloMosaic Idealize.ShloMosaic.ValueIdx Cert.KernelIdeal Cert.KernelIdeal.Gen Cert.Attention
open scoped BigOperators

/-- Row `t` of a block, as a slab. -/
def slabOf (x0 : Vec Ideal S8x128x256 .f32) (t : Fin 8) : Fin 128 → Fin 256 → EReal := fun w k => x0 (ix3 t w k)
/-- A weight matrix as a function of its two coordinates. -/
def matOf (a : Vec Ideal S256x256 .f32) : Fin 256 → Fin 256 → EReal := fun k c => a (ix2 k c)
/-- A bias vector as a function of its coordinate. -/
def vecOf (b : Vec Ideal S256 .f32) : Fin 256 → EReal := fun c => b (ix1 c)

/-- The flattened block: row `t·128 + w` of the matrix is position `w` of image row `t`. -/
theorem pay3_apply (x0 : Vec Ideal S8x128x256 .f32) (t : Fin 8) (w : Fin 128) (k : Fin 256) (r : Fin 1024)
    (hr : r.val = t.val * 128 + w.val) : k0_pay3 (F := Ideal) x0 (ix2 r k) = x0 (ix3 t w k) := by
  unfold k0_pay3 k0_pay2
  try dsimp only
  rw [truncf_apply, shapeCast_self]
  exact Cert.Lib.shapeCast_abc_nc_apply x0 _ t w k r hr

/-- One affine map of the flattened block, folded back: entry `(t, w, c)` is the map of row `t` at `(w, c)`. -/
theorem proj_apply (x0 : Vec Ideal S8x128x256 .f32) (A : Vec Ideal S256x256 .f32) (b : Vec Ideal S256 .f32)
    (t : Fin 8) (w : Fin 128) (c : Fin 256) :
    shapeCast S8x128x256 (addf (matmul dot_S1024x256_S256x256_S1024x256_1_0_0_1_n_n none (k0_pay3 (F := Ideal) x0)
        (truncf .bf16 A bitsLt_bf16_f32) (constant S1024x256 .f32 0x00000000#32))
      (broadcastTo S1024x256 (shapeCast S1x256 b shapeCasts_S256_S1x256) broadcasts_S1x256_S1024x256))
      shapeCasts_S1024x256_S8x128x256 (ix3 t w c)
    = proj (slabOf x0 t) (matOf A) (vecOf b) w c := by
  have hlt : t.val * 128 + w.val < 1024 := by have := t.isLt; have := w.isLt; omega
  rw [Cert.Lib.shapeCast_nc_abc_apply _ _ t w c ⟨t.val * 128 + w.val, hlt⟩ rfl, addf_apply,
    broadcastTo_1b_ab_apply, shapeCast_a_1a_apply]
  refine congrArg (· + b (ix1 c)) ?_
  refine (Cert.LibDot.matmul_zero_apply dot_S1024x256_S256x256_S1024x256_1_0_0_1_n_n_wf none (k0_pay3 (F := Ideal) x0)
    (truncf .bf16 A bitsLt_bf16_f32) ⟨t.val * 128 + w.val, hlt⟩ c).trans ?_
  exact Finset.sum_congr rfl fun k _ => by rw [pay3_apply x0 t w k _ rfl]; rfl

/-- An affine map of the channels of row `t`: its keys, queries or values, by the weights and bias given. -/
abbrev affOf (x0 : Vec Ideal S8x128x256 .f32) (x1 : Vec Ideal S256x256 .f32) (x2 : Vec Ideal S256 .f32) (t : Fin 8) :
    Fin 128 → Fin 256 → EReal := proj (slabOf x0 t) (matOf x1) (vecOf x2)

/-- The scores of row `t`: its queries (weights `x3`, bias `x4`) against its keys (weights `x1`, bias `x2`). -/
abbrev scoreOf (x0 : Vec Ideal S8x128x256 .f32) (x1 : Vec Ideal S256x256 .f32) (x2 : Vec Ideal S256 .f32)
    (x3 : Vec Ideal S256x256 .f32) (x4 : Vec Ideal S256 .f32) (t : Fin 8) : Fin 128 → Fin 128 → EReal :=
  score (affOf x0 x3 x4 t) (affOf x0 x1 x2 t)

/-- The exponentials of a block of scores, row by row: the maximum of a row, kept as a column and spread back over
    the row, is subtracted from every score of the row. -/
theorem expo_apply (S3 : FVec Ideal S8x128x128 .f32) (t : Fin 8) (w v : Fin 128) :
    exp (subf S3 (broadcastTo S8x128x128 (shapeCast S8x128x1
        (maximumf (broadcast S8x128 (Scalar.ofBits .f32 0xFF800000#32))
          (multiReduction .maximumf [2] S8x128 S3 0xFF800000#32 reduces_S8x128x128_S8x128 (.inl rfl) rfl))
        shapeCasts_S8x128_S8x128x1) broadcasts_S8x128x1_S8x128x128)) (ix3 t w v)
      = expo (fun w v => S3 (ix3 t w v)) w v := by
  have hmax : multiReduction .maximumf [2] S8x128 S3 0xFF800000#32 reduces_S8x128x128_S8x128 (.inl rfl) rfl (ix2 t w)
      = (Finset.univ : Finset (Fin 128)).sup fun k => S3 (ix3 t w k) :=
    Cert.LibLastMax.maxLast3_apply S3 reduces_S8x128x128_S8x128 (.inl rfl) rfl t w
  show Ideal.exp (S3 (ix3 t w v) - broadcastTo S8x128x128 _ broadcasts_S8x128x1_S8x128x128 (ix3 t w v)) = _
  rw [Cert.Lib.KeepRows.broadcastTo_ab1_abc_apply, Cert.Lib.KeepRows.shapeCast_ab_ab1_apply, maximumf_apply]
  exact congrArg (fun z => Ideal.exp (S3 (ix3 t w v) - max (Ideal.ofBits .f32 0xFF800000#32) z)) hmax

/-- The exponentials the body computes, at `(t, w, v)`: those of row `t`'s scores. -/
theorem pay5_apply (x0 : Vec Ideal S8x128x256 .f32) (x1 x3 : Vec Ideal S256x256 .f32) (x2 x4 : Vec Ideal S256 .f32)
    (t : Fin 8) (w v : Fin 128) :
    k0_pay5 (F := Ideal) x0 x1 x3 x2 x4 (ix3 t w v) = expo (scoreOf x0 x1 x2 x3 x4 t) w v := by
  unfold k0_pay5
  try dsimp only
  rw [expo_apply]
  refine congrArg (fun S => expo S w v) (funext fun p => funext fun q => ?_)
  refine (Cert.LibBatchDot.matmul_rows_apply dot_S8x128x256_S8x128x256_S8x128x128_2_2_1_1_0_0_wf none _ _ t p q).trans ?_
  refine Finset.sum_congr rfl fun k _ => ?_
  rw [truncf_apply, truncf_apply, proj_apply, proj_apply]

/-- The sums of the exponentials, kept as a column: at `(t, w, ·)` the sum of row `t`'s exponentials at `w`. -/
theorem pay6_apply (x0 : Vec Ideal S8x128x256 .f32) (x1 x3 : Vec Ideal S256x256 .f32) (x2 x4 : Vec Ideal S256 .f32)
    (t : Fin 8) (w : Fin 128) (u : Fin 1) :
    k0_pay6 (F := Ideal) x0 x1 x3 x2 x4 (ix3 t w u) = denom (scoreOf x0 x1 x2 x3 x4 t) w := by
  unfold k0_pay6
  try dsimp only
  rw [Cert.Lib.KeepRows.shapeCast_ab_ab1_apply]
  refine (Cert.Lib.KeepRows.sumLast_apply (k0_pay5 (F := Ideal) x0 x1 x3 x2 x4) 0x00000000#32 reduces_S8x128x128_S8x128
    (.inl rfl) rfl t w).trans ?_
  exact Finset.sum_congr rfl fun v _ => pay5_apply x0 x1 x3 x2 x4 t w v

/-- The values the body computes, at `(t, w, c)`: those of row `t`. -/
theorem pay4_apply (x0 : Vec Ideal S8x128x256 .f32) (x5 : Vec Ideal S256x256 .f32) (x6 : Vec Ideal S256 .f32)
    (t : Fin 8) (w : Fin 128) (c : Fin 256) :
    k0_pay4 (F := Ideal) x0 x5 x6 (ix3 t w c) = affOf x0 x5 x6 t w c := by
  unfold k0_pay4
  try dsimp only
  exact proj_apply x0 x5 x6 t w c

/-- The block itself, recast to its own shape. -/
theorem pay2_eq (x0 : Vec Ideal S8x128x256 .f32) : k0_pay2 (F := Ideal) x0 = x0 := by
  unfold k0_pay2
  try dsimp only
  exact shapeCast_self _ _

/-- The last stage on any exponentials, sums, values and block: the quotient, the weighted average over the
    positions of the row, and the product with the block. -/
theorem pay1_apply (v1 v27 : FVec Ideal S8x128x256 .f32) (v37 : FVec Ideal S8x128x128 .f32)
    (v39 : FVec Ideal S8x128x1 .f32) (t : Fin 8) (w : Fin 128) (c : Fin 256) :
    k0_pay1 (F := Ideal) v1 v27 v37 v39 (ix3 t w c)
      = (∑ v : Fin 128, Ideal.div (v37 (ix3 t w v)) (v39 (ix3 t w (0 : Fin 1))) * v27 (ix3 t v c)) * v1 (ix3 t w c) := by
  unfold k0_pay1
  try dsimp only
  rw [mulf_apply]
  refine congrArg (· * v1 (ix3 t w c)) ?_
  refine (Cert.LibBatchDot.matmul_cols_apply dot_S8x128x128_S8x128x256_S8x128x256_2_1_1_2_0_0_wf none _ _ t w c).trans ?_
  refine Finset.sum_congr rfl fun v _ => ?_
  rw [truncf_apply, truncf_apply, divf_apply, Cert.Lib.KeepRows.broadcastTo_ab1_abc_apply]

/-- Entry `(t, w, c)` of what the body stores: the layer on row `t` of the block, at `(w, c)`. -/
theorem block_apply (x0 : Vec Ideal S8x128x256 .f32) (x1 : Vec Ideal S256x256 .f32) (x2 : Vec Ideal S256 .f32)
    (x3 : Vec Ideal S256x256 .f32) (x4 : Vec Ideal S256 .f32) (x5 : Vec Ideal S256x256 .f32) (x6 : Vec Ideal S256 .f32)
    (t : Fin 8) (w : Fin 128) (c : Fin 256) :
    k0_pay1 (F := Ideal) (k0_pay2 x0) (k0_pay4 x0 x5 x6) (k0_pay5 x0 x1 x3 x2 x4) (k0_pay6 x0 x1 x3 x2 x4) (ix3 t w c)
      = slab (slabOf x0 t) (matOf x1) (vecOf x2) (matOf x3) (vecOf x4) (matOf x5) (vecOf x6) w c := by
  rw [pay1_apply, pay2_eq]
  unfold slab attend weight
  refine congrArg (· * x0 (ix3 t w c)) ?_
  refine Finset.sum_congr rfl fun v _ => ?_
  rw [pay5_apply, pay6_apply, pay4_apply]

end Cert.KernelIdeal.Block

end
-- ==== Proof.LibMergeLead.lean ====
/-
  Merging the two leading axes of a rank-4 array, and splitting them again.

  Row-major order does not change when the axes `a` and `b` of an `[a, b, c, d]` array are merged into one axis of
  extent `n = a·b`: entry `(x, y, z, u)` of the rank-4 array and entry `(x·b + y, z, u)` of the rank-3 array sit at the
  same position `((x·b + y)·c + z)·d + u`. So a reshape in either direction reads the operand at the matching index,
  for any element type and any extents.
-/
import Idealize.ShloMosaic.Lib.Pipeline.Value
import Idealize.ShloMosaic.Lib.ValueIdx

namespace Cert.LibMergeLead

open Idealize.ShloMosaic Idealize.ShloMosaic.ValueIdx

variable {α : Type}

/-- An `[a, b, c, d]` array reshaped to `[n, c, d]` reads, at `(r, z, u)` with `r = x·b + y`, the operand at `(x, y, z, u)`. -/
theorem shapeCast_abcd_ncd_apply {a b c d n : ℕ} (X : (⟨4, ![a, b, c, d]⟩ : Shape).Idx → α)
    (h : (⟨4, ![a, b, c, d]⟩ : Shape).ShapeCasts ⟨3, ![n, c, d]⟩) (x : Fin a) (y : Fin b) (z : Fin c) (u : Fin d) (r : Fin n)
    (hr : r.val = x.val * b + y.val) : shapeCast ⟨3, ![n, c, d]⟩ X h (ix3 r z u) = X (ix4 x y z u) :=
  shapeCast_apply X h _ _ (by
    rw [Shape.rowMajor_val_four, Shape.rowMajor_val_three]
    show ((x.val * b + y.val) * c + z.val) * d + u.val = (r.val * c + z.val) * d + u.val
    rw [hr])

/-- An `[n, c, d]` array reshaped to `[a, b, c, d]` reads, at `(x, y, z, u)`, the operand at `(r, z, u)` with `r = x·b + y`. -/
theorem shapeCast_ncd_abcd_apply {a b c d n : ℕ} (Y : (⟨3, ![n, c, d]⟩ : Shape).Idx → α)
    (h : (⟨3, ![n, c, d]⟩ : Shape).ShapeCasts ⟨4, ![a, b, c, d]⟩) (x : Fin a) (y : Fin b) (z : Fin c) (u : Fin d) (r : Fin n)
    (hr : r.val = x.val * b + y.val) : shapeCast ⟨4, ![a, b, c, d]⟩ Y h (ix4 x y z u) = Y (ix3 r z u) :=
  shapeCast_apply Y h _ _ (by
    rw [Shape.rowMajor_val_three, Shape.rowMajor_val_four]
    show (r.val * c + z.val) * d + u.val = ((x.val * b + y.val) * c + z.val) * d + u.val
    rw [hr])

end Cert.LibMergeLead
-- ==== Proof.KernelValue.lean ====
/-
  The kernel's result array, entry by entry.

  The program flattens the image rows `(b, h)` of the input into one axis of 2048 rows, runs the body on blocks of
  eight consecutive rows, and splits the axis of the result again. Block `t` of the flattened input is rows
  `8t … 8t + 7`; the body writes, at row `a` of the block, the layer on that row (KernelBlock); the blocks of the 256
  points tile the 2048 rows, so the flattened result is the layer on every row; and row `128·b + h` of the flattened
  arrays is image row `(b, h)`.
-/
import proofs.«169821_j5772436046133_1_alg».proof.Proof.Gen.KernelIdeal.Frame
import proofs.«169821_j5772436046133_1_alg».proof.Proof.KernelBlock
import proofs.«169821_j5772436046133_1_alg».proof.Proof.LibMergeLead
import proofs.«169821_j5772436046133_1_alg».proof.Proof.Layer
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.Attention Idealize.ShloMosaic.ValueIdx

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The layer on every row of a flattened `[2048, 128, 256]` input. -/
def rowsLayer (X : S2048x128x256.Idx → EReal) (A1 : S256x256.Idx → EReal) (a2 : S256.Idx → EReal)
    (A3 : S256x256.Idx → EReal) (a4 : S256.Idx → EReal) (A5 : S256x256.Idx → EReal) (a6 : S256.Idx → EReal) :
    S2048x128x256.Idx → EReal := fun i =>
  slab (fun w k => X (ix3 (i 0 : Fin 2048) w k)) (fun k c => A1 (ix2 k c)) (fun c => a2 (ix1 c))
    (fun k c => A3 (ix2 k c)) (fun c => a4 (ix1 c)) (fun k c => A5 (ix2 k c)) (fun c => a6 (ix1 c))
    (i 1 : Fin 128) (i 2 : Fin 256)

/-- The printed index maps over the grid: the row blocks of the input and of the result are block `t` at point `t`,
    and the weights and biases are their one block. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

/-- The input window's block at point `t` is rows `8t … 8t + 7` of the flattened input. -/
theorem iblk0_apply (c : Dev nD) (t : Fin cfg0.N) (a : Fin 8) (w : Fin 128) (k : Fin 256) (n : Fin 2048)
    (hn : n.val = 8 * t.val + a.val) :
    (iblk m c 0 t : Vec Ideal S8x128x256 .f32) (ix3 a w k) = (V m c main_v0 : S2048x128x256.Idx → EReal) (ix3 n w k) := by
  obtain ⟨e0, e1, e2, -⟩ := idx_facts t
  unfold iblk
  rw [View.read_apply]
  show V m c main_v0 _ = V m c main_v0 _
  refine congrArg (V m c main_v0) (funext fun ax => Fin.ext ?_)
  match ax with
  | ⟨0, _⟩ => show win0_0.index t (0 : Fin 3) * 8 + 1 * a.val = n.val; rw [e0, hn]; omega
  | ⟨1, _⟩ => show win0_0.index t (1 : Fin 3) * 128 + 1 * w.val = w.val; rw [e1]; omega
  | ⟨2, _⟩ => show win0_0.index t (2 : Fin 3) * 256 + 1 * k.val = k.val; rw [e2]; omega

/-- The first weight window's block is the whole matrix, at every point. -/
theorem iblk1_apply (c : Dev nD) (t : Fin cfg0.N) (k cc : Fin 256) :
    (iblk m c 1 t : Vec Ideal S256x256 .f32) (ix2 k cc) = (V m c main_arg1 : S256x256.Idx → EReal) (ix2 k cc) := by
  obtain ⟨-, -, -, -, -, -, e0, e1, -⟩ := idx_facts t
  unfold iblk
  rw [View.read_apply]
  show V m c main_arg1 _ = V m c main_arg1 _
  refine congrArg (V m c main_arg1) (funext fun ax => Fin.ext ?_)
  match ax with
  | ⟨0, _⟩ => show win0_1.index t (0 : Fin 2) * 256 + 1 * k.val = k.val; rw [e0]; omega
  | ⟨1, _⟩ => show win0_1.index t (1 : Fin 2) * 256 + 1 * cc.val = cc.val; rw [e1]; omega

/-- The first bias window's block is the whole vector, at every point. -/
theorem iblk2_apply (c : Dev nD) (t : Fin cfg0.N) (cc : Fin 256) :
    (iblk m c 2 t : Vec Ideal S256 .f32) (ix1 cc) = (V m c main_arg2 : S256.Idx → EReal) (ix1 cc) := by
  obtain ⟨-, -, -, -, -, -, -, -, e0, -⟩ := idx_facts t
  unfold iblk
  rw [View.read_apply]
  show V m c main_arg2 _ = V m c main_arg2 _
  refine congrArg (V m c main_arg2) (funext fun ax => Fin.ext ?_)
  match ax with
  | ⟨0, _⟩ => show win0_2.index t (0 : Fin 1) * 256 + 1 * cc.val = cc.val; rw [e0]; omega

/-- The second weight window's block is the whole matrix. -/
theorem iblk3_apply (c : Dev nD) (t : Fin cfg0.N) (k cc : Fin 256) :
    (iblk m c 3 t : Vec Ideal S256x256 .f32) (ix2 k cc) = (V m c main_arg3 : S256x256.Idx → EReal) (ix2 k cc) := by
  obtain ⟨-, -, -, -, -, -, -, -, -, e0, e1, -⟩ := idx_facts t
  unfold iblk
  rw [View.read_apply]
  show V m c main_arg3 _ = V m c main_arg3 _
  refine congrArg (V m c main_arg3) (funext fun ax => Fin.ext ?_)
  match ax with
  | ⟨0, _⟩ => show win0_3.index t (0 : Fin 2) * 256 + 1 * k.val = k.val; rw [e0]; omega
  | ⟨1, _⟩ => show win0_3.index t (1 : Fin 2) * 256 + 1 * cc.val = cc.val; rw [e1]; omega

/-- The second bias window's block is the whole vector. -/
theorem iblk4_apply (c : Dev nD) (t : Fin cfg0.N) (cc : Fin 256) :
    (iblk m c 4 t : Vec Ideal S256 .f32) (ix1 cc) = (V m c main_arg4 : S256.Idx → EReal) (ix1 cc) := by
  obtain ⟨-, -, -, -, -, -, -, -, -, -, -, e0, -⟩ := idx_facts t
  unfold iblk
  rw [View.read_apply]
  show V m c main_arg4 _ = V m c main_arg4 _
  refine congrArg (V m c main_arg4) (funext fun ax => Fin.ext ?_)
  match ax with
  | ⟨0, _⟩ => show win0_4.index t (0 : Fin 1) * 256 + 1 * cc.val = cc.val; rw [e0]; omega

/-- The third weight window's block is the whole matrix. -/
theorem iblk5_apply (c : Dev nD) (t : Fin cfg0.N) (k cc : Fin 256) :
    (iblk m c 5 t : Vec Ideal S256x256 .f32) (ix2 k cc) = (V m c main_arg5 : S256x256.Idx → EReal) (ix2 k cc) := by
  obtain ⟨-, -, -, -, -, -, -, -, -, -, -, -, e0, e1, -⟩ := idx_facts t
  unfold iblk
  rw [View.read_apply]
  show V m c main_arg5 _ = V m c main_arg5 _
  refine congrArg (V m c main_arg5) (funext fun ax => Fin.ext ?_)
  match ax with
  | ⟨0, _⟩ => show win0_5.index t (0 : Fin 2) * 256 + 1 * k.val = k.val; rw [e0]; omega
  | ⟨1, _⟩ => show win0_5.index t (1 : Fin 2) * 256 + 1 * cc.val = cc.val; rw [e1]; omega

/-- The third bias window's block is the whole vector. -/
theorem iblk6_apply (c : Dev nD) (t : Fin cfg0.N) (cc : Fin 256) :
    (iblk m c 6 t : Vec Ideal S256 .f32) (ix1 cc) = (V m c main_arg6 : S256.Idx → EReal) (ix1 cc) := by
  obtain ⟨-, -, -, -, -, -, -, -, -, -, -, -, -, -, e0⟩ := idx_facts t
  unfold iblk
  rw [View.read_apply]
  show V m c main_arg6 _ = V m c main_arg6 _
  refine congrArg (V m c main_arg6) (funext fun ax => Fin.ext ?_)
  match ax with
  | ⟨0, _⟩ => show win0_6.index t (0 : Fin 1) * 256 + 1 * cc.val = cc.val; rw [e0]; omega

/-- The flattened result as a function of the arrays the region finds. -/
abbrev rowsOut (c : Dev nD) : S2048x128x256.Idx → EReal :=
  rowsLayer (V m c main_v0) (V m c main_arg1) (V m c main_arg2) (V m c main_arg3) (V m c main_arg4) (V m c main_arg5) (V m c main_arg6)

/-- What the body leaves in the result's block at point `t`, at `y`: the flattened result at the block's place for `y`. -/
theorem after_at (c : Dev nD) (t : Fin cfg0.N) (y : S8x128x256.Idx) :
    out0_7 (F := Ideal) (iblk m c 0 t) (iblk m c 1 t) (iblk m c 2 t) (iblk m c 3 t) (iblk m c 4 t) (iblk m c 5 t) (iblk m c 6 t) y
      = rowsOut m c (((cfg0.win 7).blk t).view.emb y) := by
  obtain ⟨a, w, cc, rfl⟩ : ∃ (a : Fin 8) (w : Fin 128) (cc : Fin 256), y = ix3 a w cc := ⟨y 0, y 1, y 2, eq_ix3 y⟩
  obtain ⟨-, -, -, e0, e1, e2, -⟩ := idx_facts t
  have ht : t.val < 256 := lt_of_lt_of_eq t.isLt N_0
  have hlt : 8 * t.val + a.val < 2048 := by have := a.isLt; omega
  have hemb : ((cfg0.win 7).blk t).view.emb (ix3 a w cc) = ix3 (⟨8 * t.val + a.val, hlt⟩ : Fin 2048) w cc := by
    funext ax; apply Fin.ext
    match ax with
    | ⟨0, _⟩ => show win0_7.index t (0 : Fin 3) * 8 + 1 * a.val = 8 * t.val + a.val; rw [e0]; omega
    | ⟨1, _⟩ => show win0_7.index t (1 : Fin 3) * 128 + 1 * w.val = w.val; rw [e1]; omega
    | ⟨2, _⟩ => show win0_7.index t (2 : Fin 3) * 256 + 1 * cc.val = cc.val; rw [e2]; omega
  rw [hemb]
  unfold out0_7
  rw [View.canon_unit_zero hz3]
  simp only [View.ld_unit_zero (S := S8x128x256) hz3, View.ld_unit_zero (S := S256x256) hz2, View.ld_unit_zero (S := S256) hz1]
  refine (Cert.KernelIdeal.Block.block_apply (iblk m c 0 t) (iblk m c 1 t) (iblk m c 2 t) (iblk m c 3 t) (iblk m c 4 t)
    (iblk m c 5 t) (iblk m c 6 t) a w cc).trans ?_
  have s0 : Cert.KernelIdeal.Block.slabOf (iblk m c 0 t) a
      = fun w k => (V m c main_v0 : S2048x128x256.Idx → EReal) (ix3 (⟨8 * t.val + a.val, hlt⟩ : Fin 2048) w k) :=
    funext fun w => funext fun k => iblk0_apply m c t a w k _ rfl
  have s1 : Cert.KernelIdeal.Block.matOf (iblk m c 1 t) = fun k cc => (V m c main_arg1 : S256x256.Idx → EReal) (ix2 k cc) :=
    funext fun k => funext fun cc => iblk1_apply m c t k cc
  have s2 : Cert.KernelIdeal.Block.vecOf (iblk m c 2 t) = fun cc => (V m c main_arg2 : S256.Idx → EReal) (ix1 cc) :=
    funext fun cc => iblk2_apply m c t cc
  have s3 : Cert.KernelIdeal.Block.matOf (iblk m c 3 t) = fun k cc => (V m c main_arg3 : S256x256.Idx → EReal) (ix2 k cc) :=
    funext fun k => funext fun cc => iblk3_apply m c t k cc
  have s4 : Cert.KernelIdeal.Block.vecOf (iblk m c 4 t) = fun cc => (V m c main_arg4 : S256.Idx → EReal) (ix1 cc) :=
    funext fun cc => iblk4_apply m c t cc
  have s5 : Cert.KernelIdeal.Block.matOf (iblk m c 5 t) = fun k cc => (V m c main_arg5 : S256x256.Idx → EReal) (ix2 k cc) :=
    funext fun k => funext fun cc => iblk5_apply m c t k cc
  have s6 : Cert.KernelIdeal.Block.vecOf (iblk m c 6 t) = fun cc => (V m c main_arg6 : S256.Idx → EReal) (ix1 cc) :=
    funext fun cc => iblk6_apply m c t cc
  rw [s0, s1, s2, s3, s4, s5, s6]
  rfl

/-- What point `t` writes back is block `t` of the flattened result. -/
theorem flushed_eq (c : Dev nD) (t : Fin cfg0.N) :
    (dats m 0 c).flushed 7 t = ((cfg0.win 7).blk t).view.read (Elt Ideal) (rowsOut m c) := by
  show (cfg0.win 7).cut (grid0.coords t) ((dats m 0 c).after 7 t) = _
  rw [after0_7]
  funext j
  exact after_at m c t j

/-- An index of the flattened result is in point `t`'s block iff each coordinate is in the block's range on its axis. -/
theorem mem_blk (t : Fin cfg0.N) (i : S2048x128x256.Idx) :
    i ∈ ((cfg0.win 7).blk t).view.set ↔ ∀ a : Fin 3, win0_7.index t a * S8x128x256.size a ≤ (i a).val
      ∧ (i a).val < win0_7.index t a * S8x128x256.size a + S8x128x256.size a := by
  show i ∈ ((View.whole main_v1).slice (win0_7.rect t)).set ↔ _
  rw [View.set_slice_whole, Rect.mem_set_unit]
  exact Iff.rfl

/-- Every row of the flattened result is in the block of the point `row / 8`. -/
theorem cover (i : S2048x128x256.Idx) :
    ∃ t : Fin cfg0.N, (cfg0.win 7).flush t = true ∧ i ∈ ((cfg0.win 7).blk t).view.set := by
  have h0 : (i 0).val < 2048 := (i 0).isLt
  have h1 : (i 1).val < 128 := (i 1).isLt
  have h2 : (i 2).val < 256 := (i 2).isLt
  have hN : (i 0).val / 8 < cfg0.N := lt_of_lt_of_eq (by omega : (i 0).val / 8 < 256) N_0.symm
  obtain ⟨-, -, -, e0, e1, e2, -⟩ := idx_facts ⟨(i 0).val / 8, hN⟩
  refine ⟨⟨(i 0).val / 8, hN⟩, flush0_7 _, ?_⟩
  rw [mem_blk]
  intro a
  match a with
  | ⟨0, _⟩ =>
    show win0_7.index ⟨(i 0).val / 8, hN⟩ (0 : Fin 3) * 8 ≤ (i 0).val ∧ (i 0).val < win0_7.index ⟨(i 0).val / 8, hN⟩ (0 : Fin 3) * 8 + 8
    rw [e0]; show (i 0).val / 8 * 8 ≤ (i 0).val ∧ (i 0).val < (i 0).val / 8 * 8 + 8; omega
  | ⟨1, _⟩ =>
    show win0_7.index ⟨(i 0).val / 8, hN⟩ (1 : Fin 3) * 128 ≤ (i 1).val ∧ (i 1).val < win0_7.index ⟨(i 0).val / 8, hN⟩ (1 : Fin 3) * 128 + 128
    rw [e1]; omega
  | ⟨2, _⟩ =>
    show win0_7.index ⟨(i 0).val / 8, hN⟩ (2 : Fin 3) * 256 ≤ (i 2).val ∧ (i 2).val < win0_7.index ⟨(i 0).val / 8, hN⟩ (2 : Fin 3) * 256 + 256
    rw [e2]; omega

/-- The flattened result array after the run. -/
theorem final (c : Dev nD) : (dats m 0 c).arrAt 7 cfg0.N = rowsOut m c :=
  (dats m 0 c).arrAt_eq_of_cover 7 (rowsOut m c) (fun t _ => flushed_eq m c t) cover

/-- The flattened input the region finds is the reshape of the argument. -/
theorem V_main_v0 (c : Dev nD) :
    (V m c main_v0 : S2048x128x256.Idx → EReal)
      = shapeCast S2048x128x256 (m ((c : Thread nD τ).loc main_arg0)) shapeCasts_S16x128x128x256_S2048x128x256 := by
  show StableHlo.after hostOps0 (fun b => m (c, b)) (Proc.devRef .tc main_v0) = _
  after_results
  rfl

/-- The program's result is the reshape of the flattened result. -/
theorem tail_eq (c : Dev nD) :
    Pipeline.afterTail₀ cfgs (dats m) 0 (V0 m) [hostOps1] c main_v2
      = shapeCast S16x128x128x256 (rowsOut m c) shapeCasts_S2048x128x256_S16x128x128x256 := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = rowsOut m c :=
    (Pipeline.withArrays_arr spec0 launch0.win.arr_inj c _ _ 7).trans (final m c)
  exact congrArg (fun A => shapeCast S16x128x128x256 A shapeCasts_S2048x128x256_S16x128x128x256) hw

/-- The program's result is the layer on the argument arrays: row `128·b + h` of the flattened arrays is image
    row `(b, h)`, going in and coming out. -/
theorem result_eq (c : Dev nD) :
    shapeCast S16x128x128x256 (rowsOut m c) shapeCasts_S2048x128x256_S16x128x128x256
      = layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  funext i
  obtain ⟨b, h, w, cc, rfl⟩ : ∃ (b : Fin 16) (h w : Fin 128) (cc : Fin 256), i = ix4 b h w cc :=
    ⟨i 0, i 1, i 2, i 3, eq_ix4 i⟩
  have hlt : b.val * 128 + h.val < 2048 := by have := b.isLt; have := h.isLt; omega
  rw [Cert.LibMergeLead.shapeCast_ncd_abcd_apply _ _ b h w cc ⟨b.val * 128 + h.val, hlt⟩ rfl]
  have hx : (fun (w : Fin 128) (k : Fin 256) =>
        (V m c main_v0 : S2048x128x256.Idx → EReal) (ix3 (⟨b.val * 128 + h.val, hlt⟩ : Fin 2048) w k))
      = fun w k => (m ((c.tc : Thread nD τ).loc main_arg0) : S16x128x128x256.Idx → EReal) (ix4 b h w k) :=
    funext fun w => funext fun k => by
      rw [V_main_v0]
      exact Cert.LibMergeLead.shapeCast_abcd_ncd_apply _ _ b h w k _ rfl
  refine (show rowsOut m c (ix3 (⟨b.val * 128 + h.val, hlt⟩ : Fin 2048) w cc)
      = slab (fun (w : Fin 128) (k : Fin 256) =>
            (V m c main_v0 : S2048x128x256.Idx → EReal) (ix3 (⟨b.val * 128 + h.val, hlt⟩ : Fin 2048) w k))
          (fun k c' => (V m c main_arg1 : S256x256.Idx → EReal) (ix2 k c')) (fun c' => (V m c main_arg2 : S256.Idx → EReal) (ix1 c'))
          (fun k c' => (V m c main_arg3 : S256x256.Idx → EReal) (ix2 k c')) (fun c' => (V m c main_arg4 : S256.Idx → EReal) (ix1 c'))
          (fun k c' => (V m c main_arg5 : S256x256.Idx → EReal) (ix2 k c')) (fun c' => (V m c main_arg6 : S256.Idx → EReal) (ix1 c'))
          w cc from rfl).trans ?_
  rw [hx, Gen.V_main_arg1 m c, Gen.V_main_arg2 m c, Gen.V_main_arg3 m c, Gen.V_main_arg4 m c, Gen.V_main_arg5 m c,
    Gen.V_main_arg6 m c]
  rfl

/-- The run, read: the result array at the layer on the arguments, the arguments unchanged. -/
theorem run : θ_run defs (onTc (τ := τ) (main (F := Ideal))) ⟨m, fun _ => 0, ρ⟩ fun r => ∀ c : Dev nD,
      r.2.mem ((c.tc : Thread nD τ).loc main_v2)
        = layer (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v2 (Pipeline.mem_restRefs_of main_v2 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.KValue

end
-- ==== Proof.RefValue.lean ====
/-
  What the reference computes, entry by entry.

  The reference works on the whole `[16, 128, 128, 256]` array at once, with the image-row coordinates `(b, h)` as
  batch axes of every contraction and reduction. Read at `(b, h, w, c)`, every stage depends on the slab
  `x (b, h, ·, ·)` only: the result there is `slab` of that slab at `(w, c)`.
-/
import proofs.«169821_j5772436046133_1_alg».proof.Proof.Gen.ReferenceIdeal.Read
import proofs.«169821_j5772436046133_1_alg».proof.Proof.Spec
import proofs.«169821_j5772436046133_1_alg».proof.Proof.LibLastMax
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read
open Cert.Attention
open scoped BigOperators

/-- Two indices of a rank-4 (rank-3, rank-2, rank-1) shape with the same coordinates are equal. -/
local macro "idx4" : tactic =>
  `(tactic| (funext a; apply Fin.ext; match a with | ⟨0, _⟩ => rfl | ⟨1, _⟩ => rfl | ⟨2, _⟩ => rfl | ⟨3, _⟩ => rfl))
local macro "idx3" : tactic =>
  `(tactic| (funext a; apply Fin.ext; match a with | ⟨0, _⟩ => rfl | ⟨1, _⟩ => rfl | ⟨2, _⟩ => rfl))
local macro "idx2" : tactic =>
  `(tactic| (funext a; apply Fin.ext; match a with | ⟨0, _⟩ => rfl | ⟨1, _⟩ => rfl))
local macro "idx1" : tactic =>
  `(tactic| (funext a; apply Fin.ext; match a with | ⟨0, _⟩ => rfl))

abbrev Arr4 := (⟨S16x128x128x256, .f32⟩ : BufTy).Contents (Elt Ideal)
abbrev Mat := (⟨S256x256, .f32⟩ : BufTy).Contents (Elt Ideal)
abbrev Vct := (⟨S256, .f32⟩ : BufTy).Contents (Elt Ideal)

/-- Image row `(b, h)` of the input, as a slab. -/
def slabOf (x0 : Arr4) (b : Fin 16) (h : Fin 128) : Fin 128 → Fin 256 → EReal := fun w k => x0 (ix4 b h w k)
/-- A weight matrix as a function of its two coordinates. -/
def matOf (a : Mat) : Fin 256 → Fin 256 → EReal := fun k c => a (ix2 k c)
/-- A bias vector as a function of its coordinate. -/
def vecOf (v : Vct) : Fin 256 → EReal := fun c => v (ix1 c)

/-- The keys: the first affine map, at `(b, h, w, c)`. -/
theorem key_apply (x0 : Arr4) (x1 : Mat) (x2 : Vct) (b : Fin 16) (h w : Fin 128) (c : Fin 256) :
    val_main_v3 (F := Ideal) x0 x1 x2 (ix4 b h w c) = proj (slabOf x0 b h) (matOf x1) (vecOf x2) w c := by
  rw [val_main_v3_apply, val_main_v0_apply, val_main_v2_apply, val_main_v1_apply]
  refine congrArg₂ (· + ·) (Finset.sum_congr rfl fun k _ => congrArg₂ (· * ·) (congrArg x0 ?_) (congrArg x1 ?_)) (congrArg x2 ?_)
  · idx4
  · idx2
  · idx1

/-- The queries: the second affine map. -/
theorem query_apply (x0 : Arr4) (x3 : Mat) (x4 : Vct) (b : Fin 16) (h w : Fin 128) (c : Fin 256) :
    val_main_v7 (F := Ideal) x0 x3 x4 (ix4 b h w c) = proj (slabOf x0 b h) (matOf x3) (vecOf x4) w c := by
  rw [val_main_v7_apply, val_main_v4_apply, val_main_v6_apply, val_main_v5_apply]
  refine congrArg₂ (· + ·) (Finset.sum_congr rfl fun k _ => congrArg₂ (· * ·) (congrArg x0 ?_) (congrArg x3 ?_)) (congrArg x4 ?_)
  · idx4
  · idx2
  · idx1

/-- The values: the third affine map. -/
theorem value_apply (x0 : Arr4) (x5 : Mat) (x6 : Vct) (b : Fin 16) (h w : Fin 128) (c : Fin 256) :
    val_main_v11 (F := Ideal) x0 x5 x6 (ix4 b h w c) = proj (slabOf x0 b h) (matOf x5) (vecOf x6) w c := by
  rw [val_main_v11_apply, val_main_v8_apply, val_main_v10_apply, val_main_v9_apply]
  refine congrArg₂ (· + ·) (Finset.sum_congr rfl fun k _ => congrArg₂ (· * ·) (congrArg x0 ?_) (congrArg x5 ?_)) (congrArg x6 ?_)
  · idx4
  · idx2
  · idx1

/-- The scores of image row `(b, h)`. -/
abbrev scoreOf (x0 : Arr4) (x1 : Mat) (x2 : Vct) (x3 : Mat) (x4 : Vct) (b : Fin 16) (h : Fin 128) : Fin 128 → Fin 128 → EReal :=
  score (proj (slabOf x0 b h) (matOf x3) (vecOf x4)) (proj (slabOf x0 b h) (matOf x1) (vecOf x2))

theorem score_apply (x0 : Arr4) (x1 : Mat) (x2 : Vct) (x3 : Mat) (x4 : Vct) (b : Fin 16) (h w v : Fin 128) :
    val_main_v12 (F := Ideal) x0 x1 x2 x3 x4 (ix4 b h w v) = scoreOf x0 x1 x2 x3 x4 b h w v := by
  rw [val_main_v12_apply]
  refine Finset.sum_congr rfl fun k _ => ?_
  rw [show lidx_main_v12 (ix4 b h w v) k = ix4 b h w k by idx4, show ridx_main_v12 (ix4 b h w v) k = ix4 b h v k by idx4,
    query_apply, key_apply]

/-- The row maxima. -/
theorem rowMax_apply (x0 : Arr4) (x1 : Mat) (x2 : Vct) (x3 : Mat) (x4 : Vct) (b : Fin 16) (h w : Fin 128) :
    val_main_v15 (F := Ideal) x0 x1 x2 x3 x4 (ix3 b h w) = rowMax (scoreOf x0 x1 x2 x3 x4 b h) w := by
  rw [val_main_v15_apply, val_main_v14_apply, val_main_cst_0_apply]
  unfold val_main_v13
  rw [Cert.LibLastMax.hostMaxLast4_apply _ _ _ _ (by rw [val_main_cst_apply]; exact Cert.LibLastMax.ofBits_neg_inf) b h w]
  unfold rowMax
  refine congrArg (max _) (Finset.sup_congr rfl fun v _ => score_apply x0 x1 x2 x3 x4 b h w v)

/-- The exponentials. -/
theorem expo_apply (x0 : Arr4) (x1 : Mat) (x2 : Vct) (x3 : Mat) (x4 : Vct) (b : Fin 16) (h w v : Fin 128) :
    val_main_v19 (F := Ideal) x0 x1 x2 x3 x4 (ix4 b h w v) = expo (scoreOf x0 x1 x2 x3 x4 b h) w v := by
  rw [val_main_v19_apply, val_main_v18_apply, val_main_v17_apply, val_main_v16_apply, score_apply,
    show idx_main_v16 (idx_main_v17 (ix4 b h w v)) = ix3 b h w by idx3, rowMax_apply]
  rfl

/-- The sums of the exponentials. -/
theorem denom_apply (x0 : Arr4) (x1 : Mat) (x2 : Vct) (x3 : Mat) (x4 : Vct) (b : Fin 16) (h w : Fin 128) :
    val_main_v20 (F := Ideal) x0 x1 x2 x3 x4 (ix3 b h w) = denom (scoreOf x0 x1 x2 x3 x4 b h) w := by
  rw [val_main_v20_apply, val_main_cst_1_apply, Ideal.ofBits_def, Ideal.ofBits_zero_f32, zero_add]
  refine Finset.sum_congr rfl fun k _ => ?_
  rw [show idx_main_v20 (ix3 b h w) k = ix4 b h w k by idx4, expo_apply]

/-- The weights. -/
theorem weight_apply (x0 : Arr4) (x1 : Mat) (x2 : Vct) (x3 : Mat) (x4 : Vct) (b : Fin 16) (h w v : Fin 128) :
    val_main_v23 (F := Ideal) x0 x1 x2 x3 x4 (ix4 b h w v) = weight (scoreOf x0 x1 x2 x3 x4 b h) w v := by
  rw [val_main_v23_apply, val_main_v22_apply, val_main_v21_apply, expo_apply,
    show idx_main_v21 (idx_main_v22 (ix4 b h w v)) = ix3 b h w by idx3, denom_apply]
  rfl

/-- The reference's result at `(b, h, w, c)`: the layer on image row `(b, h)`, at `(w, c)`. -/
theorem result_apply (x0 : Arr4) (x1 : Mat) (x2 : Vct) (x3 : Mat) (x4 : Vct) (x5 : Mat) (x6 : Vct)
    (b : Fin 16) (h w : Fin 128) (c : Fin 256) :
    val_main_v25 (F := Ideal) x0 x1 x2 x3 x4 x5 x6 (ix4 b h w c)
      = slab (slabOf x0 b h) (matOf x1) (vecOf x2) (matOf x3) (vecOf x4) (matOf x5) (vecOf x6) w c := by
  rw [val_main_v25_apply, val_main_v24_apply]
  unfold slab attend
  refine congrArg (· * x0 (ix4 b h w c)) (Finset.sum_congr rfl fun k _ => ?_)
  rw [show lidx_main_v24 (ix4 b h w c) k = ix4 b h w k by idx4, show ridx_main_v24 (ix4 b h w c) k = ix4 b h k c by idx4,
    weight_apply, value_apply]

end Cert.ReferenceIdeal.RefValue

end
-- ==== Proof.lean ====
/-
  Row-wise self-attention over the width axis, multiplied by its input: the kernel against the reference.

  For an input `x` of shape `[16, 128, 128, 256]` every image row `x (b, h, ·, ·)` is treated on its own: three affine
  maps of the channels give keys, queries and values; each position's scores against all positions of the row
  are turned into weights by the exponential of the difference to their maximum, divided by the sum of those
  exponentials; the weights average the values; the result is multiplied by the row itself (`Attention.slab`,
  `Attention.layer`).

  The reference does this on the whole array, with `(b, h)` as batch axes of every contraction and reduction.
  The kernel flattens `(b, h)` into 2048 rows, takes them eight at a time, flattens the eight rows once more
  for the three affine maps, and rounds the operands of its five matrix products to a shorter format on the
  way into the matrix unit. Over the extended reals a change of format is the identity and a matrix product
  is its sum of products, so both programs compute `layer` of their arguments, entry by entry, by the same
  operations within a row. The only laws used are that a sum and a maximum do not depend on the order of their
  terms (each program's reductions are read as a sum or a supremum over the reduced coordinate) and that
  `0 + s = s` (the reference's sum starts from an explicit zero); none of them needs finite operands, so the
  finiteness of the inputs is never used.

  Modules: Spec, Layer (the function); KernelBlock (one block of the body), KernelValue (the blocks tile the
  flattened result; the two reshapes around the region); RefValue (the reference's stages read at an index).
  The idealization rewrote nothing, so `preserves` has nothing to state.
-/
import proofs.«169821_j5772436046133_1_alg».proof.Defs
import proofs.«169821_j5772436046133_1_alg».proof.Proof.Gen.Kernel
import proofs.«169821_j5772436046133_1_alg».proof.Proof.Gen.Kernel.Skeleton
import proofs.«169821_j5772436046133_1_alg».proof.Proof.Gen.Kernel.Launch
import proofs.«169821_j5772436046133_1_alg».proof.Proof.Gen.Kernel.Points
import proofs.«169821_j5772436046133_1_alg».proof.Proof.Gen.Kernel.Frame
import proofs.«169821_j5772436046133_1_alg».proof.Proof.Gen.KernelIdeal
import proofs.«169821_j5772436046133_1_alg».proof.Proof.Gen.KernelIdeal.Skeleton
import proofs.«169821_j5772436046133_1_alg».proof.Proof.Gen.KernelIdeal.Launch
import proofs.«169821_j5772436046133_1_alg».proof.Proof.Gen.KernelIdeal.Points
import proofs.«169821_j5772436046133_1_alg».proof.Proof.Gen.KernelIdeal.Frame
import proofs.«169821_j5772436046133_1_alg».proof.Proof.Gen.ReferenceIdeal
import proofs.«169821_j5772436046133_1_alg».proof.Proof.Gen.ReferenceIdeal.Run
import proofs.«169821_j5772436046133_1_alg».proof.Proof.Gen.ReferenceIdeal.Read
import proofs.«169821_j5772436046133_1_alg».proof.Proof.Gen.Pre_finite_inputs
import proofs.«169821_j5772436046133_1_alg».proof.Proof.Layer
import proofs.«169821_j5772436046133_1_alg».proof.Proof.KernelValue
import proofs.«169821_j5772436046133_1_alg».proof.Proof.RefValue
import Idealize.ShloMosaic.Adequacy
import Idealize.ShloMosaic.Init

noncomputable section

namespace Cert.Proof

open Idealize.ShloMosaic Idealize.ShloMosaic.ValueIdx Idealize.SL.Sem Cert.Attention

/-- The reference's result is the layer on its arguments: at `(b, h, w, c)` every stage reads image row `(b, h)` only. -/
theorem ref_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v25 (F := Ideal) m c
      = layer (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) := by
  rw [Cert.ReferenceIdeal.Read.val_main_v25_eq]
  funext i
  obtain ⟨b, h, w, cc, rfl⟩ : ∃ (b : Fin 16) (h w : Fin 128) (cc : Fin 256), i = ix4 b h w cc :=
    ⟨i 0, i 1, i 2, i 3, eq_ix4 i⟩
  exact Cert.ReferenceIdeal.RefValue.result_apply _ _ _ _ _ _ _ b h w cc

/-- The kernel runs and leaves its arguments as they were: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer on those arguments in their result. -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [ref_result, e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
